-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000x128 : Shape := ⟨2, ![640000, 128]⟩
abbrev S1x16 : Shape := ⟨2, ![1, 16]⟩
abbrev S40000 : Shape := ⟨1, ![40000]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S1x16 : S_.BroadcastsInDim S1x16 (![] : Fin 0 → Fin S1x16.rank)
  reducesTo_S1x16_S_d0_1 : S1x16.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S1024x256 .f32) (main_arg10 : FVec F S256 .f32) (main_v33 : IVec S_ 1) : IVec S_ 1 :=
  let main_v34 : FVec F S1024x256 .f32 := Host.absf main_arg9
  let main_cst_12 : FVec F S_ .f32 := constant S_ .f32 0x7F800000#32
  let main_v35 : FVec F S1024x256 .f32 := broadcastInDim S1024x256 ![] bcast_S_S1024x256 main_cst_12
  let main_v36 : IVec S1024x256 1 := cmpf .olt main_v34 main_v35
  let main_c_13 : IVec S_ 1 := constantI S_ 1 1#1
  let main_v37 : IVec S_ 1 := (fun x v => Host.reduce IntOp.andi x v reducesTo_S1024x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S1024 .f32) (main_arg7 : FVec F S1024x1024 .f32) (main_arg8 : FVec F S1024 .f32) (main_arg9 : FVec F S1024x256 .f32) (main_arg10 : FVec F S256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_v33

def fn {F : FTy → Type} [FloatOps F] (main_arg0 : FVec F S40000x128 .f32) (main_arg1 : IVec S2x640000 32) (main_arg2 : FVec F S640000x128 .f32) (main_arg3 : FVec F S1x16 .f32) (main_arg4 : IVec S40000 32) (main_arg5 : FVec F S256x1024 .f32) (main_arg6 : FVec F S1024 .f32) (main_arg7 : FVec F S1024x1024 .f32) (main_arg8 : FVec F S1024 .f32) (main_arg9 : FVec F S1024x256 .f32) (main_arg10 : FVec F S256 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000x128 .f32 := Host.absf main_arg2
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_arg9 main_arg10 main_v13 main_v16
-- ==== Kernel.lean ====
abbrev S40000x128 : Shape := ⟨2, ![40000, 128]⟩
abbrev S2x640000 : Shape := ⟨2, ![2, 640000]⟩
abbrev S640000x128 : Shape := ⟨2, ![640000, 128]⟩
abbrev S1x16 : Shape := ⟨2, ![1, 16]⟩
abbrev S40000 : Shape := ⟨1, ![40000]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S128x1024 : Shape := ⟨2, ![128, 1024]⟩
abbrev S1x1024 : Shape := ⟨2, ![1, 1024]⟩
abbrev S1x256 : Shape := ⟨2, ![1, 256]⟩
abbrev S40000x256 : Shape := ⟨2, ![40000, 256]⟩
abbrev S1600x128 : Shape := ⟨2, ![1600, 128]⟩
abbrev S1600x256 : Shape := ⟨2, ![1600, 256]⟩
abbrev S1600x1024 : Shape := ⟨2, ![1600, 1024]⟩

abbrev nBuf : Space → Nat
  | .hbm => 29
  | .vmem => 13
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S1x16, .f32⟩
  | .hbm, ⟨4, _⟩ => ⟨S40000, .i32⟩
  | .hbm, ⟨5, _⟩ => ⟨S256x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S40000x128, .f32⟩
  | .hbm, ⟨15, _⟩ => ⟨S640000x1, .i32⟩
  | .hbm, ⟨16, _⟩ => ⟨S40000x128, .f32⟩
  | .hbm, ⟨17, _⟩ => ⟨S40000x128, .bf16⟩
  | .hbm, ⟨18, _⟩ => ⟨S40000x128, .bf16⟩
  | .hbm, ⟨19, _⟩ => ⟨S128x1024, .f32⟩
  | .hbm, ⟨20, _⟩ => ⟨S128x1024, .bf16⟩
  | .hbm, ⟨21, _⟩ => ⟨S128x1024, .f32⟩
  | .hbm, ⟨22, _⟩ => ⟨S128x1024, .bf16⟩
  | .hbm, ⟨23, _⟩ => ⟨S1024x1024, .bf16⟩
  | .hbm, ⟨24, _⟩ => ⟨S1024x256, .bf16⟩
  | .hbm, ⟨25, _⟩ => ⟨S1x1024, .f32⟩
  | .hbm, ⟨26, _⟩ => ⟨S1x1024, .f32⟩
  | .hbm, ⟨27, _⟩ => ⟨S1x256, .f32⟩
  | .hbm, ⟨28, _⟩ => ⟨S40000x256, .f32⟩
  | .local _ .vmem, ⟨0, _⟩ => ⟨S1600x128, .bf16⟩
  | .local _ .vmem, ⟨1, _⟩ => ⟨S1600x128, .bf16⟩
  | .local _ .vmem, ⟨2, _⟩ => ⟨S1600x128, .bf16⟩
  | .local _ .vmem, ⟨3, _⟩ => ⟨S1600x128, .bf16⟩
  | .local _ .vmem, ⟨4, _⟩ => ⟨S128x1024, .bf16⟩
  | .local _ .vmem, ⟨5, _⟩ => ⟨S128x1024, .bf16⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x256, .bf16⟩
  | .local _ .vmem, ⟨10, _⟩ => ⟨S1x256, .f32⟩
  | .local _ .vmem, ⟨11, _⟩ => ⟨S1600x256, .f32⟩
  | .local _ .vmem, ⟨12, _⟩ => ⟨S1600x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1600x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x640000_S1x640000_0_0 : S2x640000.Slices ![0, 0] S1x640000
  shapeCasts_S1x640000_S640000 : S1x640000.ShapeCasts S640000
  bcast_S_S40000x128 : S_.BroadcastsInDim S40000x128 (![] : Fin 0 → Fin S40000x128.rank)
  bcast_S640000_S640000x1_0 : S640000.BroadcastsInDim S640000x1 (![0] : Fin 1 → Fin S640000x1.rank)
  bitsLt_bf16_f32 : FTy.bits .bf16 < FTy.bits .f32
  slices_S256x1024_S128x1024_0_0 : S256x1024.Slices ![0, 0] S128x1024
  slices_S256x1024_S128x1024_128_0 : S256x1024.Slices ![128, 0] S128x1024
  shapeCasts_S1024_S1x1024 : S1024.ShapeCasts S1x1024
  shapeCasts_S256_S1x256 : S256.ShapeCasts S1x256
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1600x1024 : S1x1024.Broadcasts S1600x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1600x256 : S1x256.Broadcasts S1600x256
  inb_S1600x256_S1600x256_0_0 : ∀ a, (![0, 0] : Fin 2 → Nat) a + S1600x256.size a ≤ S1600x256.size a
  h_S1600x256 : 0 < S1600x256.numel
  scatter_S40000x128_S640000x1_S640000x128_1_0_0_1_wf : ScatterDims.WF S40000x128 S640000x1 S640000x128 [1] [0] [0] 1
  dot_S1600x128_S128x1024_S1600x1024_1_0_0_1_n_n_wf : DotDims.WF S1600x128 S128x1024 S1600x1024 [1] [0] [0] [1] [] []
  dot_S1600x1024_S1024x1024_S1600x1024_1_0_0_1_n_n_wf : DotDims.WF S1600x1024 S1024x1024 S1600x1024 [1] [0] [0] [1] [] []
  dot_S1600x1024_S1024x256_S1600x256_1_0_0_1_n_n_wf : DotDims.WF S1600x1024 S1024x256 S1600x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S40000x128.size a
  hwx0_0 : ∀ i : grid0.Coords, EltTy.bits .bf16 = 32 ∨ (Rect.block (s := S40000x128) S1600x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S40000x128.size a
  hwx0_1 : ∀ i : grid0.Coords, EltTy.bits .bf16 = 32 ∨ (Rect.block (s := S40000x128) S1600x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .bf16 = 32 ∨ (Rect.block (s := S128x1024) S128x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .bf16 = 32 ∨ (Rect.block (s := S128x1024) S128x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x256.size a
  hwx0_7 : ∀ i : grid0.Coords, EltTy.bits .bf16 = 32 ∨ (Rect.block (s := S1024x256) S1024x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1600x256.size a ≤ S40000x256.size a
  hwx0_9 : ∀ i : grid0.Coords, EltTy.bits .f32 = 32 ∨ (Rect.block (s := S40000x256) S1600x256.size (cc0_transform_9 i) (hinb0_9 i)).WholeWords (EltTy.packing .f32)

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S1600x128_S128x1024_S1600x1024_1_0_0_1_n_n : DotDims S1600x128 S128x1024 S1600x1024 where
  lhsContracting := [1]
  rhsContracting := [0]
  lhsNonContracting := [0]
  rhsNonContracting := [1]
  lhsBatch := []
  rhsBatch := []
  wf := dot_S1600x128_S128x1024_S1600x1024_1_0_0_1_n_n_wf
def dot_S1600x1024_S1024x1024_S1600x1024_1_0_0_1_n_n : DotDims S1600x1024 S1024x1024 S1600x1024 where
  lhsContracting := [1]
  rhsContracting := [0]
  lhsNonContracting := [0]
  rhsNonContracting := [1]
  lhsBatch := []
  rhsBatch := []
  wf := dot_S1600x1024_S1024x1024_S1600x1024_1_0_0_1_n_n_wf
def dot_S1600x1024_S1024x256_S1600x256_1_0_0_1_n_n : DotDims S1600x1024 S1024x256 S1600x256 where
  lhsContracting := [1]
  rhsContracting := [0]
  lhsNonContracting := [0]
  rhsNonContracting := [1]
  lhsBatch := []
  rhsBatch := []
  wf := dot_S1600x1024_S1024x256_S1600x256_1_0_0_1_n_n_wf

abbrev win0_0 : Pipeline.Window sig grid0 :=
  Pipeline.Window.ofSpec (Memref.whole main_v5) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1600x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000x128 : Shape := ⟨2, ![640000, 128]⟩
abbrev S1x16 : Shape := ⟨2, ![1, 16]⟩
abbrev S40000 : Shape := ⟨1, ![40000]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S40000x256 : Shape := ⟨2, ![40000, 256]⟩
abbrev S40000x1024 : Shape := ⟨2, ![40000, 1024]⟩
abbrev S1x1024 : Shape := ⟨2, ![1, 1024]⟩
abbrev S1x256 : Shape := ⟨2, ![1, 256]⟩

abbrev nBuf : Space → Nat
  | .hbm => 46
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000x128, .f32⟩
  | .hbm, ⟨3, _⟩ => ⟨S1x16, .f32⟩
  | .hbm, ⟨4, _⟩ => ⟨S40000, .i32⟩
  | .hbm, ⟨5, _⟩ => ⟨S256x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1x640000, .i32⟩
  | .hbm, ⟨12, _⟩ => ⟨S640000, .i32⟩
  | .hbm, ⟨13, _⟩ => ⟨S_, .f32⟩
  | .hbm, ⟨14, _⟩ => ⟨S40000x128, .f32⟩
  | .hbm, ⟨15, _⟩ => ⟨S640000x1, .i32⟩
  | .hbm, ⟨16, _⟩ => ⟨S40000x128, .f32⟩
  | .hbm, ⟨17, _⟩ => ⟨S40000x256, .f32⟩
  | .hbm, ⟨18, _⟩ => ⟨S40000x1024, .f32⟩
  | .hbm, ⟨19, _⟩ => ⟨S1x1024, .f32⟩
  | .hbm, ⟨20, _⟩ => ⟨S40000x1024, .f32⟩
  | .hbm, ⟨21, _⟩ => ⟨S40000x1024, .f32⟩
  | .hbm, ⟨22, _⟩ => ⟨S_, .f32⟩
  | .hbm, ⟨23, _⟩ => ⟨S_, .f32⟩
  | .hbm, ⟨24, _⟩ => ⟨S40000x1024, .f32⟩
  | .hbm, ⟨25, _⟩ => ⟨S40000x1024, .i1⟩
  | .hbm, ⟨26, _⟩ => ⟨S_, .f32⟩
  | .hbm, ⟨27, _⟩ => ⟨S40000x1024, .f32⟩
  | .hbm, ⟨28, _⟩ => ⟨S40000x1024, .f32⟩
  | .hbm, ⟨29, _⟩ => ⟨S40000x1024, .f32⟩
  | .hbm, ⟨30, _⟩ => ⟨S40000x1024, .f32⟩
  | .hbm, ⟨31, _⟩ => ⟨S1x1024, .f32⟩
  | .hbm, ⟨32, _⟩ => ⟨S40000x1024, .f32⟩
  | .hbm, ⟨33, _⟩ => ⟨S40000x1024, .f32⟩
  | .hbm, ⟨34, _⟩ => ⟨S_, .f32⟩
  | .hbm, ⟨35, _⟩ => ⟨S_, .f32⟩
  | .hbm, ⟨36, _⟩ => ⟨S40000x1024, .f32⟩
  | .hbm, ⟨37, _⟩ => ⟨S40000x1024, .i1⟩
  | .hbm, ⟨38, _⟩ => ⟨S_, .f32⟩
  | .hbm, ⟨39, _⟩ => ⟨S40000x1024, .f32⟩
  | .hbm, ⟨40, _⟩ => ⟨S40000x1024, .f32⟩
  | .hbm, ⟨41, _⟩ => ⟨S40000x1024, .f32⟩
  | .hbm, ⟨42, _⟩ => ⟨S40000x256, .f32⟩
  | .hbm, ⟨43, _⟩ => ⟨S1x256, .f32⟩
  | .hbm, ⟨44, _⟩ => ⟨S40000x256, .f32⟩
  | .hbm, ⟨45, _⟩ => ⟨S40000x256, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  bcast_S_S40000x128 : S_.BroadcastsInDim S40000x128 (![] : Fin 0 → Fin S40000x128.rank)
  bcast_S640000_S640000x1_0 : S640000.BroadcastsInDim S640000x1 (![0] : Fin 1 → Fin S640000x1.rank)
  concatenates_S40000x128_S40000x128_S40000x256_d1 : Shape.Concatenates [S40000x128, S40000x128] S40000x256 1
  bcast_S1024_S1x1024_1 : S1024.BroadcastsInDim S1x1024 (![1] : Fin 1 → Fin S1x1024.rank)
  bcast_S1x1024_S40000x1024_0_1 : S1x1024.BroadcastsInDim S40000x1024 (![0, 1] : Fin 2 → Fin S40000x1024.rank)
  bcast_S_S40000x1024 : S_.BroadcastsInDim S40000x1024 (![] : Fin 0 → Fin S40000x1024.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  scatter_S40000x128_S640000x1_S640000x128_1_0_0_1_wf : ScatterDims.WF S40000x128 S640000x1 S640000x128 [1] [0] [0] 1
  dot_S40000x256_S256x1024_S40000x1024_1_0_0_1_n_n_wf : DotDims.WF S40000x256 S256x1024 S40000x1024 [1] [0] [0] [1] [] []
  dot_S40000x1024_S1024x1024_S40000x1024_1_0_0_1_n_n_wf : DotDims.WF S40000x1024 S1024x1024 S40000x1024 [1] [0] [0] [1] [] []
  dot_S40000x1024_S1024x256_S40000x256_1_0_0_1_n_n_wf : DotDims.WF S40000x1024 S1024x256 S40000x256 [1] [0] [0] [1] [] []

variable [Facts₀]

def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x1024_S40000x1024_1_0_0_1_n_n : DotDims S40000x256 S256x1024 S40000x1024 where
  lhsContracting := [1]
  rhsContracting := [0]
  lhsNonContracting := [0]
  rhsNonContracting := [1]
  lhsBatch := []
  rhsBatch := []
  wf := dot_S40000x256_S256x1024_S40000x1024_1_0_0_1_n_n_wf
def dot_S40000x1024_S1024x1024_S40000x1024_1_0_0_1_n_n : DotDims S40000x1024 S1024x1024 S40000x1024 where
  lhsContracting := [1]
  rhsContracting := [0]
  lhsNonContracting := [0]
  rhsNonContracting := [1]
  lhsBatch := []
  rhsBatch := []
  wf := dot_S40000x1024_S1024x1024_S40000x1024_1_0_0_1_n_n_wf
def dot_S40000x1024_S1024x256_S40000x256_1_0_0_1_n_n : DotDims S40000x1024 S1024x256 S40000x256 where
  lhsContracting := [1]
  rhsContracting := [0]
  lhsNonContracting := [0]
  rhsNonContracting := [1]
  lhsBatch := []
  rhsBatch := []
  wf := dot_S40000x1024_S1024x256_S40000x256_1_0_0_1_n_n_wf

class Facts : Prop extends Facts₀ where

variable [Facts]
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«139427_j5162550689856_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«139427_j5162550689856_2_alg».proof.Proof.LibMatmulPlain
import proofs.«139427_j5162550689856_2_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.Spec.lean ====
/-
  What the network computes, row by row, on the extended reals.

  For one node: from its feature row xr and its aggregated-edge row aggr (128 entries each),
    r1 j = act ((Σ_i xr i · Wa i j + Σ_i aggr i · Wb i j) + b1 j)          (1024 entries)
    r2 k = act (Σ_j r1 j · W2 j k + b2 k)                                   (1024 entries)
    out o = Σ_k r2 k · W3 k o + b3 o                                        (256 entries)
  where act v = v if 0 ≤ v, and c · v otherwise, c the f32 nearest to 1/100, and Wa, Wb are the upper and the lower
  128 rows of the 256-row first weight matrix. The result array has row n computed from row n of x and of agg.

  The one law the certificate needs: a sum over 256 indices of a family that is f on the first 128 and g on the last
  128, each term weighted by W, is the sum of the two halves. It is a regrouping of a finite sum in a commutative
  monoid, so it holds at infinite values as well, and no entry needs to be finite.
-/
import Idealize.ShloMosaic.PureOps.Ideal
import Idealize.ShloMosaic.Lib.ValueIdx

noncomputable section

open scoped BigOperators

namespace Cert.Mlp

open Idealize.ShloMosaic Idealize.ShloMosaic.ValueIdx

/-- The leaky rectifier on one extended real: the value itself when it is at least zero, the slope's multiple
    otherwise; the zero and the slope are the two f32 words the programs print. -/
def act (v : EReal) : EReal :=
  Scalar.select (Ideal.cmp .oge v (Ideal.ofBits .f32 0x00000000#32)) v (Ideal.ofBits .f32 0x3C23D70A#32 * v)

/-- First layer of one row, the weight matrix given as its upper and lower halves. -/
def row1 (xr aggr : Fin 128 → EReal) (Wa Wb : Fin 128 → Fin 1024 → EReal) (b1 : Fin 1024 → EReal) (j : Fin 1024) : EReal :=
  act ((∑ i : Fin 128, xr i * Wa i j + ∑ i : Fin 128, aggr i * Wb i j) + b1 j)

/-- Second layer of one row. -/
def row2 (r1 : Fin 1024 → EReal) (W2 : Fin 1024 → Fin 1024 → EReal) (b2 : Fin 1024 → EReal) (k : Fin 1024) : EReal :=
  act (∑ j : Fin 1024, r1 j * W2 j k + b2 k)

/-- Third layer of one row (no rectifier). -/
def row3 (r2 : Fin 1024 → EReal) (W3 : Fin 1024 → Fin 256 → EReal) (b3 : Fin 256 → EReal) (o : Fin 256) : EReal :=
  ∑ k : Fin 1024, r2 k * W3 k o + b3 o

/-- The three layers of one row. -/
def mlpRow (xr aggr : Fin 128 → EReal) (Wa Wb : Fin 128 → Fin 1024 → EReal) (b1 : Fin 1024 → EReal)
    (W2 : Fin 1024 → Fin 1024 → EReal) (b2 : Fin 1024 → EReal) (W3 : Fin 1024 → Fin 256 → EReal) (b3 : Fin 256 → EReal)
    (o : Fin 256) : EReal :=
  row3 (row2 (row1 xr aggr Wa Wb b1) W2 b2) W3 b3 o

/-- The whole result: entry (n, o) is the network's output o on row n of x and of agg, the first weight matrix cut
    into its rows 0–127 and 128–255. -/
def G (x agg : FVec Ideal ⟨2, ![40000, 128]⟩ .f32) (W1 : FVec Ideal ⟨2, ![256, 1024]⟩ .f32) (b1 : FVec Ideal ⟨1, ![1024]⟩ .f32)
    (W2 : FVec Ideal ⟨2, ![1024, 1024]⟩ .f32) (b2 : FVec Ideal ⟨1, ![1024]⟩ .f32)
    (W3 : FVec Ideal ⟨2, ![1024, 256]⟩ .f32) (b3 : FVec Ideal ⟨1, ![256]⟩ .f32) : FVec Ideal ⟨2, ![40000, 256]⟩ .f32 :=
  fun i => mlpRow (fun a => x (ix2 (i 0) a)) (fun a => agg (ix2 (i 0) a))
    (fun a j => W1 (ix2 (Fin.castAdd 128 a) j)) (fun a j => W1 (ix2 (Fin.natAdd 128 a) j)) (fun j => b1 (ix1 j))
    (fun j k => W2 (ix2 j k)) (fun k => b2 (ix1 k)) (fun k o => W3 (ix2 k o)) (fun o => b3 (ix1 o)) (i 1)

theorem G_apply (x agg : FVec Ideal ⟨2, ![40000, 128]⟩ .f32) (W1 : FVec Ideal ⟨2, ![256, 1024]⟩ .f32) (b1 : FVec Ideal ⟨1, ![1024]⟩ .f32)
    (W2 : FVec Ideal ⟨2, ![1024, 1024]⟩ .f32) (b2 : FVec Ideal ⟨1, ![1024]⟩ .f32)
    (W3 : FVec Ideal ⟨2, ![1024, 256]⟩ .f32) (b3 : FVec Ideal ⟨1, ![256]⟩ .f32) (n : Fin 40000) (o : Fin 256) :
    G x agg W1 b1 W2 b2 W3 b3 (ix2 n o) = mlpRow (fun a => x (ix2 n a)) (fun a => agg (ix2 n a))
      (fun a j => W1 (ix2 (Fin.castAdd 128 a) j)) (fun a j => W1 (ix2 (Fin.natAdd 128 a) j)) (fun j => b1 (ix1 j))
      (fun j k => W2 (ix2 j k)) (fun k => b2 (ix1 k)) (fun k o => W3 (ix2 k o)) (fun o => b3 (ix1 o)) o := rfl

/-- A weighted sum over 128 + 128 indices of a family given by its two halves is the sum of the halves' weighted sums. -/
theorem sum_halves (f g : Fin 128 → EReal) (W : Fin (128 + 128) → EReal) :
    ∑ q : Fin (128 + 128), Fin.addCases (motive := fun _ => EReal) f g q * W q
      = ∑ i : Fin 128, f i * W (Fin.castAdd 128 i) + ∑ i : Fin 128, g i * W (Fin.natAdd 128 i) := by
  rw [Fin.sum_univ_add]
  simp only [Fin.addCases_left, Fin.addCases_right]

end Cert.Mlp

end
-- ==== Proof.KernelPayload.lean ====
/-
  The kernel body's arithmetic at one entry of its output block.

  At a grid point the body holds a block of 1600 rows of x and of agg, the two 128-row halves of the first weight
  matrix, the other two weight matrices, and the three biases as one-row matrices. It computes
  ((x · Wa + agg · Wb) + b1), rectifies, multiplies by W2, adds b2, rectifies, multiplies by W3 and adds b3; the changes
  of float format in between are identities on the extended reals. So entry (p, o) of the stored block is the
  network's output o on row p of the two input blocks.
-/
import proofs.«139427_j5162550689856_2_alg».proof.Proof.Gen.KernelIdeal.Skeleton
import proofs.«139427_j5162550689856_2_alg».proof.Proof.LibDense
import proofs.«139427_j5162550689856_2_alg».proof.Proof.Spec

noncomputable section

open scoped BigOperators

namespace Cert.KernelIdeal.Payload

open Cert.KernelIdeal Cert.KernelIdeal.Gen Idealize.ShloMosaic Idealize.ShloMosaic.ValueIdx Cert.Mlp

/-- The rectifier as the body spells it (compare with the zero splat, select the value or the slope's multiple), at an
    index. -/
theorem act_read {S : Shape} (v : FVec Ideal S .f32) (i : S.Idx) :
    select (cmpf .oge v (broadcast S (Scalar.ofBits (F := Ideal) .f32 0x00000000#32))) v
      (mulf (broadcast S (Scalar.ofBits (F := Ideal) .f32 0x3C23D70A#32)) v) i = act (v i) := rfl

/-- The same after the change of format to bf16, which is the identity here. -/
theorem act_trunc_read {S : Shape} (v : FVec Ideal S .f32) (h : FTy.bf16.bits < FTy.f32.bits) (i : S.Idx) :
    truncf .bf16 (select (cmpf .oge v (broadcast S (Scalar.ofBits (F := Ideal) .f32 0x00000000#32))) v
      (mulf (broadcast S (Scalar.ofBits (F := Ideal) .f32 0x3C23D70A#32)) v)) h i = act (v i) := rfl

/-- The three printed dimension records are those of plain products [M, K] by [K, N]. -/
theorem dot1_eq : dot_S1600x128_S128x1024_S1600x1024_1_0_0_1_n_n = DotDims.plain 1600 128 1024 := rfl
theorem dot2_eq : dot_S1600x1024_S1024x1024_S1600x1024_1_0_0_1_n_n = DotDims.plain 1600 1024 1024 := rfl
theorem dot3_eq : dot_S1600x1024_S1024x256_S1600x256_1_0_0_1_n_n = DotDims.plain 1600 1024 256 := rfl

/-- The first layer before the rectifier, at (p, j): the two half products and the bias. -/
theorem pre1_apply (x0 x1 : FVec Ideal S1600x128 .bf16) (x2 x3 : FVec Ideal S128x1024 .bf16) (x4 : FVec Ideal S1x1024 .f32)
    (p : Fin 1600) (j : Fin 1024) :
    addf (addf (matmul (DotDims.plain 1600 128 1024) none x0 x2 (constant (F := Ideal) S1600x1024 .f32 0x00000000#32))
          (matmul (DotDims.plain 1600 128 1024) none x1 x3 (constant (F := Ideal) S1600x1024 .f32 0x00000000#32)))
        (broadcastTo S1600x1024 x4 broadcasts_S1x1024_S1600x1024) (ix2 p j)
      = (∑ i : Fin 128, x0 (ix2 p i) * x2 (ix2 i j) + ∑ i : Fin 128, x1 (ix2 p i) * x3 (ix2 i j)) + x4 (ix2 (0 : Fin 1) j) := by
  show (matmul (DotDims.plain 1600 128 1024) none x0 x2 (constant (F := Ideal) S1600x1024 .f32 0x00000000#32) (ix2 p j)
        + matmul (DotDims.plain 1600 128 1024) none x1 x3 (constant (F := Ideal) S1600x1024 .f32 0x00000000#32) (ix2 p j))
      + broadcastTo S1600x1024 x4 broadcasts_S1x1024_S1600x1024 (ix2 p j) = _
  rw [MatmulPlain.matmul_zero_apply, MatmulPlain.matmul_zero_apply, broadcastTo_1b_ab_apply]

/-- The stored block at (p, o) is the network's output o on row p of the loaded blocks. -/
theorem pay_apply (x0 x1 : FVec Ideal S1600x128 .bf16) (x2 x3 : FVec Ideal S128x1024 .bf16) (x4 : FVec Ideal S1x1024 .f32)
    (x5 : FVec Ideal S1024x1024 .bf16) (x6 : FVec Ideal S1x1024 .f32) (x7 : FVec Ideal S1024x256 .bf16)
    (x8 : FVec Ideal S1x256 .f32) (p : Fin 1600) (o : Fin 256) :
    k0_pay1 (F := Ideal) (k0_pay2 x0 x1 x2 x3 x4 x5 x6) (k0_pay3 x7) x8 (ix2 p o)
      = mlpRow (fun a => x0 (ix2 p a)) (fun a => x1 (ix2 p a)) (fun a j => x2 (ix2 a j)) (fun a j => x3 (ix2 a j))
          (fun j => x4 (ix2 (0 : Fin 1) j)) (fun j k => x5 (ix2 j k)) (fun k => x6 (ix2 (0 : Fin 1) k))
          (fun k o => x7 (ix2 k o)) (fun o => x8 (ix2 (0 : Fin 1) o)) o := by
  unfold k0_pay1 k0_pay2 k0_pay3 mlpRow row3
  simp only [shapeCast_self, dot1_eq, dot2_eq, dot3_eq]
  refine (Dense.matmul_bias_apply _ x7 x8 broadcasts_S1x256_S1600x256 p o).trans ?_
  congr 1
  refine Finset.sum_congr rfl fun k _ => ?_
  congr 1
  refine (act_trunc_read _ bitsLt_bf16_f32 (ix2 p k)).trans ?_
  unfold row2
  congr 1
  refine (Dense.matmul_bias_apply _ x5 x6 broadcasts_S1x1024_S1600x1024 p k).trans ?_
  congr 1
  refine Finset.sum_congr rfl fun j _ => ?_
  congr 1
  refine (act_trunc_read _ bitsLt_bf16_f32 (ix2 p j)).trans ?_
  unfold row1
  congr 1
  exact pre1_apply x0 x1 x2 x3 x4 p j

end Cert.KernelIdeal.Payload

end
-- ==== Proof.KernelValue.lean ====
/-
  From the blocks the grid points write back to the whole result array.

  Grid point t reads rows 1600·t … 1600·t + 1599 of x and of agg (as the region finds them, in bf16) and the weight and
  bias arrays whole, and writes back rows 1600·t … 1600·t + 1599 of the result. Row p of what it writes is the network's
  output on row p of its two input blocks, that is on row 1600·t + p of the arrays: so each written block is the
  restriction of ONE whole-array function, and the 25 blocks tile the 40000 rows (row n lies in the block of point
  n / 1600). Hence after the run the result array is that function of the arrays the region finds.

  Those arrays are host-made from the arguments: x and the weights converted to bf16 (the identity here), the first
  weight matrix cut into its rows 0–127 and 128–255, each bias vector reshaped to one row, and agg the scatter-add of the
  edge attributes. Reading them at an index turns the function into the row-by-row network of the arguments.
-/
import proofs.«139427_j5162550689856_2_alg».proof.Proof.Gen.KernelIdeal.Value
import proofs.«139427_j5162550689856_2_alg».proof.Proof.KernelPayload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ) (ρ : Dev nD → PrngReg)

/-- The result as one function of the nine arrays the region finds: entry (n, o) is the network's output o on row n of
    the first two arrays, the weight halves, the other weights and the one-row biases read as they are. -/
def GK (X0 X1 : FVec Ideal S40000x128 .bf16) (X2 X3 : FVec Ideal S128x1024 .bf16) (X4 : FVec Ideal S1x1024 .f32)
    (X5 : FVec Ideal S1024x1024 .bf16) (X6 : FVec Ideal S1x1024 .f32) (X7 : FVec Ideal S1024x256 .bf16)
    (X8 : FVec Ideal S1x256 .f32) : FVec Ideal S40000x256 .f32 :=
  fun i => mlpRow (fun a => X0 (ix2 (i 0) a)) (fun a => X1 (ix2 (i 0) a)) (fun a j => X2 (ix2 a j)) (fun a j => X3 (ix2 a j))
    (fun j => X4 (ix2 (0 : Fin 1) j)) (fun j k => X5 (ix2 j k)) (fun k => X6 (ix2 (0 : Fin 1) k))
    (fun k o => X7 (ix2 k o)) (fun o => X8 (ix2 (0 : Fin 1) o)) (i 1)

/-- Every load and the store of the body start at the block's origin. -/
theorem hz : (![0, 0] : Fin 2 → Nat) = fun _ => 0 := funext fun a => by fin_cases a <;> rfl

/-- One entry of what a point writes. If the point's two row blocks hold, in row y 0, the rows i 0 of the two row
    arrays, its other blocks are the other arrays whole, and y and i have the same column, then entry y of the body's
    stored value is entry i of the whole-array function. -/
theorem entry_eq (X0 X1 : FVec Ideal S40000x128 .bf16) (X2 X3 : FVec Ideal S128x1024 .bf16) (X4 : FVec Ideal S1x1024 .f32)
    (X5 : FVec Ideal S1024x1024 .bf16) (X6 : FVec Ideal S1x1024 .f32) (X7 : FVec Ideal S1024x256 .bf16)
    (X8 : FVec Ideal S1x256 .f32)
    (x0 x1 : FVec Ideal S1600x128 .bf16) (x2 x3 : FVec Ideal S128x1024 .bf16) (x4 : FVec Ideal S1x1024 .f32)
    (x5 : FVec Ideal S1024x1024 .bf16) (x6 : FVec Ideal S1x1024 .f32) (x7 : FVec Ideal S1024x256 .bf16)
    (x8 : FVec Ideal S1x256 .f32)
    (y : S1600x256.Idx) (i : S40000x256.Idx)
    (h0 : ∀ a : Fin 128, x0 (ix2 (y 0) a) = X0 (ix2 (i 0) a))
    (h1 : ∀ a : Fin 128, x1 (ix2 (y 0) a) = X1 (ix2 (i 0) a))
    (hc : (y 1).val = (i 1).val)
    (h2 : x2 = X2) (h3 : x3 = X3) (h4 : x4 = X4) (h5 : x5 = X5) (h6 : x6 = X6) (h7 : x7 = X7) (h8 : x8 = X8) :
    k0_pay1 (F := Ideal) (k0_pay2 x0 x1 x2 x3 x4 x5 x6) (k0_pay3 x7) x8 y = GK X0 X1 X2 X3 X4 X5 X6 X7 X8 i := by
  subst h2 h3 h4 h5 h6 h7 h8
  obtain ⟨p, o, rfl⟩ : ∃ (p : Fin 1600) (o : Fin 256), y = ix2 p o := ⟨y 0, y 1, eq_ix2 y⟩
  rw [Payload.pay_apply]
  unfold GK
  have e0 : (fun a => x0 (ix2 p a)) = fun a => X0 (ix2 (i 0) a) := funext h0
  have e1 : (fun a => x1 (ix2 p a)) = fun a => X1 (ix2 (i 0) a) := funext h1
  have eo : o = i 1 := Fin.ext hc
  rw [e0, e1, eo]

/-- The printed index maps over the 25 points: the two row inputs move with the output block along the rows, every other
    input stays at block (0, 0), and the output's block row is at most 24 and its block column 0. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 24 ∧ win0_9.index t (1 : Fin 2) = 0 :=
  (by decide +kernel : ∀ t : Fin grid0.N, _)

/-- Each of the 25 row blocks of the result is some point's. -/
theorem idx_onto : ∀ q : Fin 25, ∃ t : Fin cfg0.N, win0_9.index t = ![q.val, 0] :=
  (by decide +kernel : ∀ q : Fin 25, ∃ t : Fin grid0.N, win0_9.index t = ![q.val, 0])

/-- What point t writes back is block t of the whole-array function of the arrays the region finds: row p of its two
    row blocks is row 1600·t + p of the two row arrays, and its other blocks are the other arrays whole. -/
theorem flushed9_eq (c : Dev nD) (t : Fin cfg0.N) :
    (dats m 0 c).flushed 9 t = ((cfg0.win 9).blk t).view.read (Elt Ideal)
      (GK (V m c main_v5) (V m c main_v6) (V m c main_v8) (V m c main_v10) (V m c main_v13) (V m c main_v11)
        (V m c main_v14) (V m c main_v12) (V m c main_v15)) := by
  rw [Value.flushed9]
  unfold out0_9
  rw [View.canon_unit_zero hz]
  simp only [View.ld_unit_zero (S := S1600x128) hz, View.ld_unit_zero (S := S128x1024) hz, View.ld_unit_zero (S := S1x1024) hz,
    View.ld_unit_zero (S := S1024x1024) hz, View.ld_unit_zero (S := S1024x256) hz, View.ld_unit_zero (S := S1x256) hz]
  obtain ⟨e00, e01, e10, e11, e20, e21, e30, e31, e40, e41, e50, e51, e60, e61, e70, e71, e80, e81, e9le, e91⟩ := idx_facts t
  funext y
  show k0_pay1 (F := Ideal)
        (k0_pay2 (iblk m c 0 t) (iblk m c 1 t) (iblk m c 2 t) (iblk m c 3 t) (iblk m c 4 t) (iblk m c 5 t) (iblk m c 6 t))
        (k0_pay3 (iblk m c 7 t)) (iblk m c 8 t) y
      = GK (V m c main_v5) (V m c main_v6) (V m c main_v8) (V m c main_v10) (V m c main_v13) (V m c main_v11)
          (V m c main_v14) (V m c main_v12) (V m c main_v15) (((cfg0.win 9).blk t).view.emb y)
  refine entry_eq (V m c main_v5) (V m c main_v6) (V m c main_v8) (V m c main_v10) (V m c main_v13) (V m c main_v11)
    (V m c main_v14) (V m c main_v12) (V m c main_v15)
    (iblk m c 0 t) (iblk m c 1 t) (iblk m c 2 t) (iblk m c 3 t) (iblk m c 4 t) (iblk m c 5 t) (iblk m c 6 t)
    (iblk m c 7 t) (iblk m c 8 t) y (((cfg0.win 9).blk t).view.emb y) ?_ ?_ ?_ ?_ ?_ ?_ ?_ ?_ ?_ ?_
  · intro a
    show V m c main_v5 (((cfg0.win 0).blk t).view.emb (ix2 (y 0) a)) = V m c main_v5 (ix2 ((((cfg0.win 9).blk t).view.emb y) 0) a)
    have hi : ((cfg0.win 0).blk t).view.emb (ix2 (y 0) a) = ix2 ((((cfg0.win 9).blk t).view.emb y) 0) a := by
      funext ax; apply Fin.ext
      match ax with
      | ⟨0, _⟩ => show win0_0.index t (0 : Fin 2) * 1600 + 1 * (y 0).val = win0_9.index t (0 : Fin 2) * 1600 + 1 * (y 0).val; omega
      | ⟨1, _⟩ => show win0_0.index t (1 : Fin 2) * 128 + 1 * a.val = a.val; omega
    exact congrArg (V m c main_v5) hi
  · intro a
    show V m c main_v6 (((cfg0.win 1).blk t).view.emb (ix2 (y 0) a)) = V m c main_v6 (ix2 ((((cfg0.win 9).blk t).view.emb y) 0) a)
    have hi : ((cfg0.win 1).blk t).view.emb (ix2 (y 0) a) = ix2 ((((cfg0.win 9).blk t).view.emb y) 0) a := by
      funext ax; apply Fin.ext
      match ax with
      | ⟨0, _⟩ => show win0_1.index t (0 : Fin 2) * 1600 + 1 * (y 0).val = win0_9.index t (0 : Fin 2) * 1600 + 1 * (y 0).val; omega
      | ⟨1, _⟩ => show win0_1.index t (1 : Fin 2) * 128 + 1 * a.val = a.val; omega
    exact congrArg (V m c main_v6) hi
  · show (y 1).val = win0_9.index t (1 : Fin 2) * 256 + 1 * (y 1).val
    omega
  · funext z
    show V m c main_v8 (((cfg0.win 2).blk t).view.emb z) = V m c main_v8 z
    have hz' : ((cfg0.win 2).blk t).view.emb z = z := by
      funext ax; apply Fin.ext
      match ax with
      | ⟨0, _⟩ => show win0_2.index t (0 : Fin 2) * 128 + 1 * (z 0).val = (z 0).val; omega
      | ⟨1, _⟩ => show win0_2.index t (1 : Fin 2) * 1024 + 1 * (z 1).val = (z 1).val; omega
    exact congrArg (V m c main_v8) hz'
  · funext z
    show V m c main_v10 (((cfg0.win 3).blk t).view.emb z) = V m c main_v10 z
    have hz' : ((cfg0.win 3).blk t).view.emb z = z := by
      funext ax; apply Fin.ext
      match ax with
      | ⟨0, _⟩ => show win0_3.index t (0 : Fin 2) * 128 + 1 * (z 0).val = (z 0).val; omega
      | ⟨1, _⟩ => show win0_3.index t (1 : Fin 2) * 1024 + 1 * (z 1).val = (z 1).val; omega
    exact congrArg (V m c main_v10) hz'
  · funext z
    show V m c main_v13 (((cfg0.win 4).blk t).view.emb z) = V m c main_v13 z
    have hz' : ((cfg0.win 4).blk t).view.emb z = z := by
      funext ax; apply Fin.ext
      match ax with
      | ⟨0, _⟩ => show win0_4.index t (0 : Fin 2) * 1 + 1 * (z 0).val = (z 0).val; omega
      | ⟨1, _⟩ => show win0_4.index t (1 : Fin 2) * 1024 + 1 * (z 1).val = (z 1).val; omega
    exact congrArg (V m c main_v13) hz'
  · funext z
    show V m c main_v11 (((cfg0.win 5).blk t).view.emb z) = V m c main_v11 z
    have hz' : ((cfg0.win 5).blk t).view.emb z = z := by
      funext ax; apply Fin.ext
      match ax with
      | ⟨0, _⟩ => show win0_5.index t (0 : Fin 2) * 1024 + 1 * (z 0).val = (z 0).val; omega
      | ⟨1, _⟩ => show win0_5.index t (1 : Fin 2) * 1024 + 1 * (z 1).val = (z 1).val; omega
    exact congrArg (V m c main_v11) hz'
  · funext z
    show V m c main_v14 (((cfg0.win 6).blk t).view.emb z) = V m c main_v14 z
    have hz' : ((cfg0.win 6).blk t).view.emb z = z := by
      funext ax; apply Fin.ext
      match ax with
      | ⟨0, _⟩ => show win0_6.index t (0 : Fin 2) * 1 + 1 * (z 0).val = (z 0).val; omega
      | ⟨1, _⟩ => show win0_6.index t (1 : Fin 2) * 1024 + 1 * (z 1).val = (z 1).val; omega
    exact congrArg (V m c main_v14) hz'
  · funext z
    show V m c main_v12 (((cfg0.win 7).blk t).view.emb z) = V m c main_v12 z
    have hz' : ((cfg0.win 7).blk t).view.emb z = z := by
      funext ax; apply Fin.ext
      match ax with
      | ⟨0, _⟩ => show win0_7.index t (0 : Fin 2) * 1024 + 1 * (z 0).val = (z 0).val; omega
      | ⟨1, _⟩ => show win0_7.index t (1 : Fin 2) * 256 + 1 * (z 1).val = (z 1).val; omega
    exact congrArg (V m c main_v12) hz'
  · funext z
    show V m c main_v15 (((cfg0.win 8).blk t).view.emb z) = V m c main_v15 z
    have hz' : ((cfg0.win 8).blk t).view.emb z = z := by
      funext ax; apply Fin.ext
      match ax with
      | ⟨0, _⟩ => show win0_8.index t (0 : Fin 2) * 1 + 1 * (z 0).val = (z 0).val; omega
      | ⟨1, _⟩ => show win0_8.index t (1 : Fin 2) * 256 + 1 * (z 1).val = (z 1).val; omega
    exact congrArg (V m c main_v15) hz'

/-- An index of the result array is in point t's block iff each coordinate is in the block's range on its axis. -/
theorem mem_blk9 (t : Fin cfg0.N) (i : S40000x256.Idx) :
    i ∈ ((cfg0.win 9).blk t).view.set ↔ ∀ a : Fin 2, win0_9.index t a * S1600x256.size a ≤ (i a).val ∧ (i a).val < win0_9.index t a * S1600x256.size a + S1600x256.size a := by
  show i ∈ ((View.whole main_v16).slice (win0_9.rect t)).set ↔ _
  rw [View.set_slice_whole, Rect.mem_set_unit]
  exact Iff.rfl

/-- Every index of the result array lies in some point's block: row n in the block of point n / 1600. -/
theorem cover9 (i : S40000x256.Idx) : ∃ t : Fin cfg0.N, (cfg0.win 9).flush t = true ∧ i ∈ ((cfg0.win 9).blk t).view.set := by
  have hi0 : (i 0).val < 40000 := (i 0).isLt
  have hi1 : (i 1).val < 256 := (i 1).isLt
  obtain ⟨t, ht⟩ := idx_onto ⟨(i 0).val / 1600, by omega⟩
  have q0 : win0_9.index t (0 : Fin 2) = (i 0).val / 1600 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 1600 ≤ (i 0).val ∧ (i 0).val < win0_9.index t (0 : Fin 2) * 1600 + 1600; omega
  | ⟨1, _⟩ => show win0_9.index t (1 : Fin 2) * 256 ≤ (i 1).val ∧ (i 1).val < win0_9.index t (1 : Fin 2) * 256 + 256; omega

/-- After the run the result array is the whole-array function of the arrays the region finds. -/
theorem final9 (c : Dev nD) : (dats m 0 c).arrAt 9 cfg0.N
    = GK (V m c main_v5) (V m c main_v6) (V m c main_v8) (V m c main_v10) (V m c main_v13) (V m c main_v11)
        (V m c main_v14) (V m c main_v12) (V m c main_v15) :=
  (dats m 0 c).arrAt_eq_of_cover 9 _ (fun t _ => flushed9_eq m c t) cover9

end Cert.KernelIdeal.Blocks

end
-- ==== Proof.KernelRun.lean ====
/-
  The kernel's run, with its result array stated as the row-by-row network of the arguments.

  The arrays the region finds are host-made from the arguments: x, W2, W3 and the two halves of W1 converted to bf16 (the
  identity on the extended reals), W1 cut at row 128, each bias vector reshaped to one row, and agg the scatter-add of
  the edge attributes into a zero array. Read at an index, the upper half of W1 at (a, j) is W1 at (a, j), the lower
  half at (a, j) is W1 at (128 + a, j), and a reshaped bias at (0, j) is the bias at j.
-/
import proofs.«139427_j5162550689856_2_alg».proof.Proof.KernelValue
import Idealize.ShloMosaic.Lib.ValueLayout
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Mlp Idealize.ShloMosaic.StableHlo
open Idealize.ShloMosaic.Pipeline (Dat)

variable (m : (ℓ : Loc nD τ sig) → Buf (Elt Ideal) ℓ) (ρ : Dev nD → PrngReg)

/-- The aggregated edge attributes, as the kernel's host code computes them. -/
def aggOf (ei : IVec S2x640000 32) (ea : FVec Ideal S640000x128 .f32) : FVec Ideal S40000x128 .f32 :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0
      (shapeCast S640000 (extractStridedSlice S1x640000 ![0, 0] ei slices_S2x640000_S1x640000_0_0) shapeCasts_S1x640000_S640000))
    ea

theorem V_v5 (c : Dev nD) : @Eq (FVec Ideal S40000x128 .bf16) (V m c main_v5)
    (truncf (F := Ideal) .bf16 (m ((c : Thread nD τ).loc main_arg0) : FVec Ideal S40000x128 .f32) bitsLt_bf16_f32) := by
  dsimp only [Gen.V, Gen.hostOps0]; after_results

theorem V_v6 (c : Dev nD) : @Eq (FVec Ideal S40000x128 .bf16) (V m c main_v6)
    (truncf (F := Ideal) .bf16 (aggOf (m ((c : Thread nD τ).loc main_arg1)) (m ((c : Thread nD τ).loc main_arg2))) bitsLt_bf16_f32) := by
  dsimp only [Gen.V, Gen.hostOps0]; after_results; rfl

theorem V_v8 (c : Dev nD) : @Eq (FVec Ideal S128x1024 .bf16) (V m c main_v8)
    (truncf (F := Ideal) .bf16 (extractStridedSlice S128x1024 ![0, 0] (m ((c : Thread nD τ).loc main_arg5) : FVec Ideal S256x1024 .f32) slices_S256x1024_S128x1024_0_0) bitsLt_bf16_f32) := by
  dsimp only [Gen.V, Gen.hostOps0]; after_results

theorem V_v10 (c : Dev nD) : @Eq (FVec Ideal S128x1024 .bf16) (V m c main_v10)
    (truncf (F := Ideal) .bf16 (extractStridedSlice S128x1024 ![128, 0] (m ((c : Thread nD τ).loc main_arg5) : FVec Ideal S256x1024 .f32) slices_S256x1024_S128x1024_128_0) bitsLt_bf16_f32) := by
  dsimp only [Gen.V, Gen.hostOps0]; after_results

theorem V_v11 (c : Dev nD) : @Eq (FVec Ideal S1024x1024 .bf16) (V m c main_v11)
    (truncf (F := Ideal) .bf16 (m ((c : Thread nD τ).loc main_arg7) : FVec Ideal S1024x1024 .f32) bitsLt_bf16_f32) := by
  dsimp only [Gen.V, Gen.hostOps0]; after_results

theorem V_v12 (c : Dev nD) : @Eq (FVec Ideal S1024x256 .bf16) (V m c main_v12)
    (truncf (F := Ideal) .bf16 (m ((c : Thread nD τ).loc main_arg9) : FVec Ideal S1024x256 .f32) bitsLt_bf16_f32) := by
  dsimp only [Gen.V, Gen.hostOps0]; after_results

theorem V_v13 (c : Dev nD) : @Eq (FVec Ideal S1x1024 .f32) (V m c main_v13)
    (shapeCast S1x1024 (m ((c : Thread nD τ).loc main_arg6) : FVec Ideal S1024 .f32) shapeCasts_S1024_S1x1024) := by
  dsimp only [Gen.V, Gen.hostOps0]; after_results; rfl

theorem V_v14 (c : Dev nD) : @Eq (FVec Ideal S1x1024 .f32) (V m c main_v14)
    (shapeCast S1x1024 (m ((c : Thread nD τ).loc main_arg8) : FVec Ideal S1024 .f32) shapeCasts_S1024_S1x1024) := by
  dsimp only [Gen.V, Gen.hostOps0]; after_results; rfl

theorem V_v15 (c : Dev nD) : @Eq (FVec Ideal S1x256 .f32) (V m c main_v15)
    (shapeCast S1x256 (m ((c : Thread nD τ).loc main_arg10) : FVec Ideal S256 .f32) shapeCasts_S256_S1x256) := by
  dsimp only [Gen.V, Gen.hostOps0]; after_results; rfl

/-- The whole-array function of the host-made arrays is the row-by-row network of the arguments. -/
theorem GK_eq_G (x agg : FVec Ideal S40000x128 .f32) (W1 : FVec Ideal S256x1024 .f32) (b1 : FVec Ideal S1024 .f32)
    (W2 : FVec Ideal S1024x1024 .f32) (b2 : FVec Ideal S1024 .f32) (W3 : FVec Ideal S1024x256 .f32) (b3 : FVec Ideal S256 .f32) :
    GK (truncf .bf16 x bitsLt_bf16_f32) (truncf .bf16 agg bitsLt_bf16_f32)
        (truncf .bf16 (extractStridedSlice S128x1024 ![0, 0] W1 slices_S256x1024_S128x1024_0_0) bitsLt_bf16_f32)
        (truncf .bf16 (extractStridedSlice S128x1024 ![128, 0] W1 slices_S256x1024_S128x1024_128_0) bitsLt_bf16_f32)
        (shapeCast S1x1024 b1 shapeCasts_S1024_S1x1024) (truncf .bf16 W2 bitsLt_bf16_f32)
        (shapeCast S1x1024 b2 shapeCasts_S1024_S1x1024) (truncf .bf16 W3 bitsLt_bf16_f32)
        (shapeCast S1x256 b3 shapeCasts_S256_S1x256)
      = G x agg W1 b1 W2 b2 W3 b3 := by
  funext i
  obtain ⟨n, o, rfl⟩ : ∃ (n : Fin 40000) (o : Fin 256), i = ix2 n o := ⟨i 0, i 1, eq_ix2 i⟩
  rw [G_apply]
  have ea : (fun (a : Fin 128) (j : Fin 1024) =>
        (truncf .bf16 (extractStridedSlice S128x1024 ![0, 0] W1 slices_S256x1024_S128x1024_0_0) bitsLt_bf16_f32 : FVec Ideal S128x1024 .bf16) (ix2 a j))
      = fun a j => W1 (ix2 (Fin.castAdd 128 a) j) := by
    funext a j
    exact slice2_axis0_apply 0 W1 slices_S256x1024_S128x1024_0_0 a j (Fin.castAdd 128 a) (by simp)
  have eb : (fun (a : Fin 128) (j : Fin 1024) =>
        (truncf .bf16 (extractStridedSlice S128x1024 ![128, 0] W1 slices_S256x1024_S128x1024_128_0) bitsLt_bf16_f32 : FVec Ideal S128x1024 .bf16) (ix2 a j))
      = fun a j => W1 (ix2 (Fin.natAdd 128 a) j) := by
    funext a j
    exact slice2_axis0_apply 128 W1 slices_S256x1024_S128x1024_128_0 a j (Fin.natAdd 128 a) rfl
  have e4 : (fun j : Fin 1024 => shapeCast S1x1024 b1 shapeCasts_S1024_S1x1024 (ix2 (0 : Fin 1) j)) = fun j => b1 (ix1 j) :=
    funext fun j => shapeCast_a_1a_apply b1 shapeCasts_S1024_S1x1024 0 j
  have e6 : (fun j : Fin 1024 => shapeCast S1x1024 b2 shapeCasts_S1024_S1x1024 (ix2 (0 : Fin 1) j)) = fun j => b2 (ix1 j) :=
    funext fun j => shapeCast_a_1a_apply b2 shapeCasts_S1024_S1x1024 0 j
  have e8 : (fun j : Fin 256 => shapeCast S1x256 b3 shapeCasts_S256_S1x256 (ix2 (0 : Fin 1) j)) = fun j => b3 (ix1 j) :=
    funext fun j => shapeCast_a_1a_apply b3 shapeCasts_S256_S1x256 0 j
  unfold GK
  rw [ea, eb, e4, e6, e8]
  rfl

/-- After the run the result array is the row-by-row network of the arguments. -/
theorem final (c : Dev nD) : (dats m 0 c).arrAt 9 cfg0.N
    = G (m ((c : Thread nD τ).loc main_arg0)) (aggOf (m ((c : Thread nD τ).loc main_arg1)) (m ((c : Thread nD τ).loc main_arg2)))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  rw [final9, V_v5, V_v6, V_v8, V_v10, V_v13, V_v11, V_v14, V_v12, V_v15]
  exact GK_eq_G _ _ _ _ _ _ _ _

/-- Every weakly fair execution of the kernel's program terminates with the result array at the row-by-row network of
    the arguments and the arguments unchanged. -/
theorem run : θ_run defs (onTc (τ := τ) (main (F := Ideal))) ⟨m, fun _ => 0, ρ⟩ fun r => ∀ c : Dev nD,
      r.2.mem ((c : Thread nD τ).loc main_v16)
        = G (m ((c : Thread nD τ).loc main_arg0)) (aggOf (m ((c : Thread nD τ).loc main_arg1)) (m ((c : Thread nD τ).loc main_arg2)))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Blocks

end
-- ==== Proof.RefRun.lean ====
/-
  The reference program's run, read back as one straight line of host operations.

  The reference computes, on the host, agg = the scatter-add of the edge attributes into the rows named by the first
  row of the edge index; h = [x | agg] (the two joined along the columns); then three dense layers
  v ↦ v · W + b, the first two followed by the leaky rectifier v ↦ (v ≥ 0 ? v : c · v) with c the f32 nearest to
  1/100. The rectifier is an outlined function that itself calls an outlined select; at each of its two calls its seven
  operations (the zero, the zero's broadcast, the comparison, the slope's conversion, the slope's broadcast, the
  product, the select) act on that call's own buffers, so @main is one sequence of thirty-five operations. Every weakly
  fair execution of it terminates with each buffer at the fold of the operations over the launch contents.
-/
import proofs.«139427_j5162550689856_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's thirty-five operations, in order, the rectifier's at its two calls. -/
abbrev ops : List (HloOp τ sig (Elt F)) :=
  [
    StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.nullary main_cst (constant S_ .f32 0x00000000#32),
    StableHlo.unary main_cst main_v2 (broadcastInDim S40000x128 ![] bcast_S_S40000x128 : (⟨S_, .f32⟩ : BufTy).Contents (Elt F) → (⟨S40000x128, .f32⟩ : BufTy).Contents (Elt F)),
    StableHlo.unary main_v1 main_v3 (broadcastInDim S640000x1 ![0] bcast_S640000_S640000x1_0 : (⟨S640000, .i32⟩ : BufTy).Contents (Elt F) → (⟨S640000x1, .i32⟩ : BufTy).Contents (Elt F)),
    StableHlo.ternary main_v2 main_v3 main_arg2 main_v4 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.binary main_arg0 main_v4 main_v5 ((fun a b => concatenate S40000x256 1 [⟨S40000x128, a⟩, ⟨S40000x128, b⟩] concatenates_S40000x128_S40000x128_S40000x256_d1) : (⟨S40000x128, .f32⟩ : BufTy).Contents (Elt F) → (⟨S40000x128, .f32⟩ : BufTy).Contents (Elt F) → (⟨S40000x256, .f32⟩ : BufTy).Contents (Elt F)),
    StableHlo.binary main_v5 main_arg5 main_v6 ((fun l r => Host.dotGeneral dot_S40000x256_S256x1024_S40000x1024_1_0_0_1_n_n none l r) : (⟨S40000x256, .f32⟩ : BufTy).Contents (Elt F) → (⟨S256x1024, .f32⟩ : BufTy).Contents (Elt F) → (⟨S40000x1024, .f32⟩ : BufTy).Contents (Elt F)),
    StableHlo.unary main_arg6 main_v7 (broadcastInDim S1x1024 ![1] bcast_S1024_S1x1024_1 : (⟨S1024, .f32⟩ : BufTy).Contents (Elt F) → (⟨S1x1024, .f32⟩ : BufTy).Contents (Elt F)),
    StableHlo.unary main_v7 main_v8 (broadcastInDim S40000x1024 ![0, 1] bcast_S1x1024_S40000x1024_0_1 : (⟨S1x1024, .f32⟩ : BufTy).Contents (Elt F) → (⟨S40000x1024, .f32⟩ : BufTy).Contents (Elt F)),
    StableHlo.binary main_v6 main_v8 main_v9 (addf : (⟨S40000x1024, .f32⟩ : BufTy).Contents (Elt F) → (⟨S40000x1024, .f32⟩ : BufTy).Contents (Elt F) → (⟨S40000x1024, .f32⟩ : BufTy).Contents (Elt F)),
    StableHlo.nullary main_cst_0 (constant S_ .f32 0x3C23D70A#32),
    StableHlo.TRef.nullary main_call0.cst (constant S_ .f32 0x00000000#32),
    StableHlo.TRef.unary main_call0.cst main_call0.v0 (broadcastInDim S40000x1024 ![] bcast_S_S40000x1024),
    StableHlo.TRef.binary (.of main_v9) main_call0.v0 main_call0.v1 (cmpf .oge),
    StableHlo.TRef.unary (.of main_cst_0) main_call0.v2 id,
    StableHlo.TRef.unary main_call0.v2 main_call0.v3 (broadcastInDim S40000x1024 ![] bcast_S_S40000x1024),
    StableHlo.TRef.binary main_call0.v3 (.of main_v9) main_call0.v4 mulf,
    StableHlo.TRef.ternary main_call0.v1 (.of main_v9) main_call0.v4 main_call0.call0.v0 select,
    StableHlo.binary main_v10 main_arg7 main_v11 ((fun l r => Host.dotGeneral dot_S40000x1024_S1024x1024_S40000x1024_1_0_0_1_n_n none l r) : (⟨S40000x1024, .f32⟩ : BufTy).Contents (Elt F) → (⟨S1024x1024, .f32⟩ : BufTy).Contents (Elt F) → (⟨S40000x1024, .f32⟩ : BufTy).Contents (Elt F)),
    StableHlo.unary main_arg8 main_v12 (broadcastInDim S1x1024 ![1] bcast_S1024_S1x1024_1 : (⟨S1024, .f32⟩ : BufTy).Contents (Elt F) → (⟨S1x1024, .f32⟩ : BufTy).Contents (Elt F)),
    StableHlo.unary main_v12 main_v13 (broadcastInDim S40000x1024 ![0, 1] bcast_S1x1024_S40000x1024_0_1 : (⟨S1x1024, .f32⟩ : BufTy).Contents (Elt F) → (⟨S40000x1024, .f32⟩ : BufTy).Contents (Elt F)),
    StableHlo.binary main_v11 main_v13 main_v14 (addf : (⟨S40000x1024, .f32⟩ : BufTy).Contents (Elt F) → (⟨S40000x1024, .f32⟩ : BufTy).Contents (Elt F) → (⟨S40000x1024, .f32⟩ : BufTy).Contents (Elt F)),
    StableHlo.nullary main_cst_1 (constant S_ .f32 0x3C23D70A#32),
    StableHlo.TRef.nullary main_call1.cst (constant S_ .f32 0x00000000#32),
    StableHlo.TRef.unary main_call1.cst main_call1.v0 (broadcastInDim S40000x1024 ![] bcast_S_S40000x1024),
    StableHlo.TRef.binary (.of main_v14) main_call1.v0 main_call1.v1 (cmpf .oge),
    StableHlo.TRef.unary (.of main_cst_1) main_call1.v2 id,
    StableHlo.TRef.unary main_call1.v2 main_call1.v3 (broadcastInDim S40000x1024 ![] bcast_S_S40000x1024),
    StableHlo.TRef.binary main_call1.v3 (.of main_v14) main_call1.v4 mulf,
    StableHlo.TRef.ternary main_call1.v1 (.of main_v14) main_call1.v4 main_call1.call0.v0 select,
    StableHlo.binary main_v15 main_arg9 main_v16 ((fun l r => Host.dotGeneral dot_S40000x1024_S1024x256_S40000x256_1_0_0_1_n_n none l r) : (⟨S40000x1024, .f32⟩ : BufTy).Contents (Elt F) → (⟨S1024x256, .f32⟩ : BufTy).Contents (Elt F) → (⟨S40000x256, .f32⟩ : BufTy).Contents (Elt F)),
    StableHlo.unary main_arg10 main_v17 (broadcastInDim S1x256 ![1] bcast_S256_S1x256_1 : (⟨S256, .f32⟩ : BufTy).Contents (Elt F) → (⟨S1x256, .f32⟩ : BufTy).Contents (Elt F)),
    StableHlo.unary main_v17 main_v18 (broadcastInDim S40000x256 ![0, 1] bcast_S1x256_S40000x256_0_1 : (⟨S1x256, .f32⟩ : BufTy).Contents (Elt F) → (⟨S40000x256, .f32⟩ : BufTy).Contents (Elt F)),
    StableHlo.binary main_v16 main_v18 main_v19 (addf : (⟨S40000x256, .f32⟩ : BufTy).Contents (Elt F) → (⟨S40000x256, .f32⟩ : BufTy).Contents (Elt F) → (⟨S40000x256, .f32⟩ : BufTy).Contents (Elt F)) ]

set_option maxRecDepth 2048 in
/-- @main is that straight line: the two outlined functions unfolded at their calls, sequencing reassociated. -/
theorem main_eq (c : Dev nD) : main (F := F) c = seq ops := by
  simp only [main, fn_leaky_relu.body, fn_where.body, seq, bind_assoc, pure_bind]

/-- The reference has no scoped buffer and no scoped semaphore. -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- Every weakly fair execution of @main terminates, and every final state has each TensorCore buffer at the
    operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
/-
  The reference's result as one composed term of its arguments.

  agg is the scatter-add of the edge attributes (into a zero array, at the rows the edge index's first row names);
  a dense layer is the host's matrix product plus the bias broadcast over the rows; the rectifier compares with the
  zero splat and selects the value or the slope's multiple. The result is
  dense₃ (rect (dense₂ (rect (dense₁ [x | agg])))).
-/
import proofs.«139427_j5162550689856_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The aggregated edge attributes: row n is the sum of the attribute rows of the edges whose source is n. -/
def aggOf (ei : (⟨S2x640000, .i32⟩ : BufTy).Contents (Elt F)) (ea : (⟨S640000x128, .f32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0
      (shapeCast S640000 (extractStridedSlice S1x640000 ![0, 0] ei slices_S2x640000_S1x640000_0_0) shapeCasts_S1x640000_S640000))
    ea

/-- The rectifier on a whole [40000, 1024] array, as the outlined function spells it. -/
def rect (v : (⟨S40000x1024, .f32⟩ : BufTy).Contents (Elt F)) : (⟨S40000x1024, .f32⟩ : BufTy).Contents (Elt F) :=
  select (cmpf .oge v (broadcastInDim S40000x1024 ![] bcast_S_S40000x1024 (constant S_ .f32 0x00000000#32))) v
    (mulf (broadcastInDim S40000x1024 ![] bcast_S_S40000x1024 (id (constant S_ .f32 0x3C23D70A#32))) v)

/-- The first dense layer on whole arrays: h · W + b, the bias broadcast over the rows. -/
def dense1 (h : (⟨S40000x256, .f32⟩ : BufTy).Contents (Elt F)) (W : (⟨S256x1024, .f32⟩ : BufTy).Contents (Elt F))
    (b : (⟨S1024, .f32⟩ : BufTy).Contents (Elt F)) : (⟨S40000x1024, .f32⟩ : BufTy).Contents (Elt F) :=
  addf (Host.dotGeneral dot_S40000x256_S256x1024_S40000x1024_1_0_0_1_n_n none h W)
    (broadcastInDim S40000x1024 ![0, 1] bcast_S1x1024_S40000x1024_0_1 (broadcastInDim S1x1024 ![1] bcast_S1024_S1x1024_1 b))

/-- The second dense layer. -/
def dense2 (h : (⟨S40000x1024, .f32⟩ : BufTy).Contents (Elt F)) (W : (⟨S1024x1024, .f32⟩ : BufTy).Contents (Elt F))
    (b : (⟨S1024, .f32⟩ : BufTy).Contents (Elt F)) : (⟨S40000x1024, .f32⟩ : BufTy).Contents (Elt F) :=
  addf (Host.dotGeneral dot_S40000x1024_S1024x1024_S40000x1024_1_0_0_1_n_n none h W)
    (broadcastInDim S40000x1024 ![0, 1] bcast_S1x1024_S40000x1024_0_1 (broadcastInDim S1x1024 ![1] bcast_S1024_S1x1024_1 b))

/-- The third dense layer. -/
def dense3 (h : (⟨S40000x1024, .f32⟩ : BufTy).Contents (Elt F)) (W : (⟨S1024x256, .f32⟩ : BufTy).Contents (Elt F))
    (b : (⟨S256, .f32⟩ : BufTy).Contents (Elt F)) : (⟨S40000x256, .f32⟩ : BufTy).Contents (Elt F) :=
  addf (Host.dotGeneral dot_S40000x1024_S1024x256_S40000x256_1_0_0_1_n_n none h W)
    (broadcastInDim S40000x256 ![0, 1] bcast_S1x256_S40000x256_0_1 (broadcastInDim S1x256 ![1] bcast_S256_S1x256_1 b))

/-- x and agg joined along the columns. -/
def joined (x agg : (⟨S40000x128, .f32⟩ : BufTy).Contents (Elt F)) : (⟨S40000x256, .f32⟩ : BufTy).Contents (Elt F) :=
  concatenate S40000x256 1 [⟨S40000x128, x⟩, ⟨S40000x128, agg⟩] concatenates_S40000x128_S40000x128_S40000x256_d1

/-- The reference's result as a term of its arguments. -/
def refOut (x : (⟨S40000x128, .f32⟩ : BufTy).Contents (Elt F)) (ei : (⟨S2x640000, .i32⟩ : BufTy).Contents (Elt F))
    (ea : (⟨S640000x128, .f32⟩ : BufTy).Contents (Elt F)) (W1 : (⟨S256x1024, .f32⟩ : BufTy).Contents (Elt F))
    (b1 : (⟨S1024, .f32⟩ : BufTy).Contents (Elt F)) (W2 : (⟨S1024x1024, .f32⟩ : BufTy).Contents (Elt F))
    (b2 : (⟨S1024, .f32⟩ : BufTy).Contents (Elt F)) (W3 : (⟨S1024x256, .f32⟩ : BufTy).Contents (Elt F))
    (b3 : (⟨S256, .f32⟩ : BufTy).Contents (Elt F)) : (⟨S40000x256, .f32⟩ : BufTy).Contents (Elt F) :=
  dense3 (rect (dense2 (rect (dense1 (joined x (aggOf ei ea)) W1 b1)) W2 b2)) W3 b3

attribute [local irreducible] Host.scatterAdd concatenate in
set_option maxRecDepth 8192 in
set_option maxHeartbeats 800000 in
/-- The fold at the result buffer is that term, by computation: each operation's result at its own buffer is its
    function's value, at any other buffer what was there, and the typed references' transports are identities. -/
theorem out_eq (V : Valuation τ sig (Elt F)) :
    after ops V (main_v19 : DevRef τ sig)
      = refOut (V (main_arg0 : DevRef τ sig)) (V (main_arg1 : DevRef τ sig)) (V (main_arg2 : DevRef τ sig))
          (V (main_arg5 : DevRef τ sig)) (V (main_arg6 : DevRef τ sig)) (V (main_arg7 : DevRef τ sig))
          (V (main_arg8 : DevRef τ sig)) (V (main_arg9 : DevRef τ sig)) (V (main_arg10 : DevRef τ sig)) := by
  simp only [after_cons, after_nil]
  rfl

end Cert.ReferenceIdeal.Hand

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.RefValue.lean ====
/-
  The reference's result, index by index, is the row-by-row network.

  Entry (n, o) of the last dense layer is Σ_k h₂ (n, k) · W3 (k, o) + b3 o, with h₂ the rectified second layer and so
  on down to the first layer, whose input row is [x n | agg n]: there the sum over the 256 joined columns is the sum over
  x's 128 columns against the upper half of W1 plus the sum over agg's 128 columns against the lower half.
-/
import proofs.«139427_j5162550689856_2_alg».proof.Proof.RefTerm
import proofs.«139427_j5162550689856_2_alg».proof.Proof.LibDense
import proofs.«139427_j5162550689856_2_alg».proof.Proof.LibConcatCols
import proofs.«139427_j5162550689856_2_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem
open Idealize.ShloMosaic.ValueIdx Cert.Mlp

/-- The three printed dimension records are those of plain products [M, K] by [K, N]. -/
theorem d1_eq : dot_S40000x256_S256x1024_S40000x1024_1_0_0_1_n_n = DotDims.plain 40000 256 1024 := rfl
theorem d2_eq : dot_S40000x1024_S1024x1024_S40000x1024_1_0_0_1_n_n = DotDims.plain 40000 1024 1024 := rfl
theorem d3_eq : dot_S40000x1024_S1024x256_S40000x256_1_0_0_1_n_n = DotDims.plain 40000 1024 256 := rfl

/-- The outlined rectifier at an index. -/
theorem rect_apply (v : FVec Ideal S40000x1024 .f32) (i : S40000x1024.Idx) : rect (F := Ideal) v i = act (v i) := rfl

/-- The joined array at (n, q): x's row for the first 128 columns, agg's row for the last 128. -/
theorem joined_apply (x agg : FVec Ideal S40000x128 .f32) (n : Fin 40000) (q : Fin 256) :
    joined (F := Ideal) x agg (ix2 n q)
      = Fin.addCases (m := 128) (n := 128) (motive := fun _ => EReal) (fun k => x (ix2 n k)) (fun k => agg (ix2 n k)) q :=
  ConcatCols.concat_cols_apply (n := 40000) (a := 128) (b := 128) x agg concatenates_S40000x128_S40000x128_S40000x256_d1 n q

/-- The sum over the 256 joined columns is the sum of the two halves. -/
theorem sum_joined (f g : Fin 128 → EReal) (W : Fin 256 → EReal) :
    ∑ q : Fin 256, Fin.addCases (m := 128) (n := 128) (motive := fun _ => EReal) f g q * W q
      = ∑ i : Fin 128, f i * W (Fin.castAdd 128 i) + ∑ i : Fin 128, g i * W (Fin.natAdd 128 i) :=
  sum_halves f g W

/-- The reference's term is the row-by-row network of x, agg and the weights. -/
theorem refOut_eq (x : FVec Ideal S40000x128 .f32) (ei : IVec S2x640000 32) (ea : FVec Ideal S640000x128 .f32)
    (W1 : FVec Ideal S256x1024 .f32) (b1 : FVec Ideal S1024 .f32) (W2 : FVec Ideal S1024x1024 .f32) (b2 : FVec Ideal S1024 .f32)
    (W3 : FVec Ideal S1024x256 .f32) (b3 : FVec Ideal S256 .f32) :
    refOut (F := Ideal) x ei ea W1 b1 W2 b2 W3 b3 = G x (aggOf (F := Ideal) ei ea) W1 b1 W2 b2 W3 b3 := by
  funext i
  obtain ⟨n, o, rfl⟩ : ∃ (n : Fin 40000) (o : Fin 256), i = ix2 n o := ⟨i 0, i 1, eq_ix2 i⟩
  rw [G_apply]
  unfold refOut dense3 mlpRow row3
  rw [d3_eq]
  refine (Dense.dot_bias_apply _ W3 b3 bcast_S256_S1x256_1 bcast_S1x256_S40000x256_0_1 n o).trans ?_
  congr 1
  refine Finset.sum_congr rfl fun k _ => ?_
  congr 1
  refine (rect_apply _ (ix2 n k)).trans ?_
  unfold row2 dense2
  rw [d2_eq]
  congr 1
  refine (Dense.dot_bias_apply _ W2 b2 bcast_S1024_S1x1024_1 bcast_S1x1024_S40000x1024_0_1 n k).trans ?_
  congr 1
  refine Finset.sum_congr rfl fun j _ => ?_
  congr 1
  refine (rect_apply _ (ix2 n j)).trans ?_
  unfold row1 dense1
  rw [d1_eq]
  congr 1
  refine (Dense.dot_bias_apply _ W1 b1 bcast_S1024_S1x1024_1 bcast_S1x1024_S40000x1024_0_1 n j).trans ?_
  congr 1
  refine Eq.trans (Finset.sum_congr rfl fun q _ => by rw [joined_apply]) ?_
  exact sum_joined (fun a => x (ix2 n a)) (fun a => aggOf (F := Ideal) ei ea (ix2 n a)) (fun q => W1 (ix2 q j))

end Cert.ReferenceIdeal.Hand

end
-- ==== Proof.RefFinal.lean ====
/-
  The reference's run, with its result stated as the row-by-row network of the arguments.

  No operation of the reference writes an argument's buffer, so each argument ends as launched; the result buffer ends
  at the composed term, which index by index is the network.
-/
import proofs.«139427_j5162550689856_2_alg».proof.Proof.RefValue

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Mlp

section Args
variable {F : FTy → Type} [FloatOps F]

/-- No operation writes an argument's buffer: after the whole line each argument holds what it held. -/
theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

theorem arg4_eq (V : Valuation τ sig (Elt F)) : after ops V (main_arg4 : DevRef τ sig) = V (main_arg4 : DevRef τ sig) := by
  after_results_simp

theorem arg5_eq (V : Valuation τ sig (Elt F)) : after ops V (main_arg5 : DevRef τ sig) = V (main_arg5 : DevRef τ sig) := by
  after_results_simp

theorem arg6_eq (V : Valuation τ sig (Elt F)) : after ops V (main_arg6 : DevRef τ sig) = V (main_arg6 : DevRef τ sig) := by
  after_results_simp

theorem arg7_eq (V : Valuation τ sig (Elt F)) : after ops V (main_arg7 : DevRef τ sig) = V (main_arg7 : DevRef τ sig) := by
  after_results_simp

theorem arg8_eq (V : Valuation τ sig (Elt F)) : after ops V (main_arg8 : DevRef τ sig) = V (main_arg8 : DevRef τ sig) := by
  after_results_simp

theorem arg9_eq (V : Valuation τ sig (Elt F)) : after ops V (main_arg9 : DevRef τ sig) = V (main_arg9 : DevRef τ sig) := by
  after_results_simp

theorem arg10_eq (V : Valuation τ sig (Elt F)) : after ops V (main_arg10 : DevRef τ sig) = V (main_arg10 : DevRef τ sig) := by
  after_results_simp

end Args

/-- Every weakly fair execution of the reference terminates with its result at the row-by-row network of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = G (m ((c.tc : Thread nD τ).loc main_arg0))
            (aggOf (F := Ideal) (m ((c.tc : Thread nD τ).loc main_arg1)) (m ((c.tc : Thread nD τ).loc main_arg2)))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v19).trans ((out_eq _).trans (refOut_eq _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_fold m ρ)

end Cert.ReferenceIdeal.Hand

end
-- ==== Proof.lean ====
/-
  The node update of a graph network: agg = the sum of each node's outgoing edge attributes; then a three-layer
  perceptron with leaky rectifiers on [x | agg].

  The kernel's program computes agg on the host, converts x, agg and the weights to bf16, cuts the first weight matrix
  W1 into its upper and lower 128 rows, and runs the perceptron in a grid of 25 blocks of 1600 rows, the first layer as
  x · W1[0:128] + agg · W1[128:256] + b1. The reference joins x and agg along the columns and multiplies by W1 whole.
  On the extended reals a change of float format is the identity and every product is the exact row-by-column sum, so
  both result arrays are, entry by entry, the same function of the arguments: the only difference is that a sum over
  the 256 joined columns is split into its first and last 128 terms, a regrouping of a finite sum that holds for
  infinite entries too. The precondition is therefore not used for the values.

  The three frames: the kernel's two programs by the generated frame certificates, the reference by its run with the
  result dropped. The idealization rewrote no operation, so there is nothing to preserve.
-/
import proofs.«139427_j5162550689856_2_alg».proof.Defs
import proofs.«139427_j5162550689856_2_alg».proof.Proof.Gen.Kernel
import proofs.«139427_j5162550689856_2_alg».proof.Proof.Gen.Kernel.Skeleton
import proofs.«139427_j5162550689856_2_alg».proof.Proof.Gen.Kernel.Launch
import proofs.«139427_j5162550689856_2_alg».proof.Proof.Gen.Kernel.Points
import proofs.«139427_j5162550689856_2_alg».proof.Proof.Gen.Kernel.Frame
import proofs.«139427_j5162550689856_2_alg».proof.Proof.Gen.KernelIdeal
import proofs.«139427_j5162550689856_2_alg».proof.Proof.Gen.KernelIdeal.Skeleton
import proofs.«139427_j5162550689856_2_alg».proof.Proof.Gen.KernelIdeal.Launch
import proofs.«139427_j5162550689856_2_alg».proof.Proof.Gen.KernelIdeal.Points
import proofs.«139427_j5162550689856_2_alg».proof.Proof.Gen.KernelIdeal.Frame
import proofs.«139427_j5162550689856_2_alg».proof.Proof.Gen.KernelIdeal.Value
import proofs.«139427_j5162550689856_2_alg».proof.Proof.Gen.ReferenceIdeal
import proofs.«139427_j5162550689856_2_alg».proof.Proof.Gen.Pre_finite_inputs
import proofs.«139427_j5162550689856_2_alg».proof.Proof.KernelRun
import proofs.«139427_j5162550689856_2_alg».proof.Proof.RefFinal
import Idealize.ShloMosaic.Adequacy
import Idealize.ShloMosaic.Init

noncomputable section

namespace Cert.Proof

open Idealize.ShloMosaic Idealize.SL.Sem

/-- Both programs compute agg by the same host operations on the same arguments: one function. -/
theorem agg_eq (ei : IVec ⟨2, ![2, 640000]⟩ 32) (ea : FVec Ideal ⟨2, ![640000, 128]⟩ .f32) :
    Cert.ReferenceIdeal.Hand.aggOf (F := Ideal) ei ea = Cert.KernelIdeal.Blocks.aggOf ei ea := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

/-- Both runs end with the result array at the row-by-row network of the arguments, which agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Hand.run m' ρ')
  obtain ⟨a0, a1, a2, _, _, a5, a6, a7, a8, a9, a10⟩ := hagree c
  rw [a0, a1, a2, a5, a6, a7, a8, a9, a10, agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
